-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64x64 .f32) (main_arg6 : FVec F S64x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x64 .f32) (main_arg3 : FVec F S128x64 .f32) (main_arg4 : FVec F S64 .f32) (main_arg5 : FVec F S64x64 .f32) (main_arg6 : FVec F S64x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x64 : Shape := ⟨2, ![50000, 64]⟩
abbrev S5000x128 : Shape := ⟨2, ![5000, 128]⟩
abbrev S5000x64 : Shape := ⟨2, ![5000, 64]⟩
abbrev S1x64 : Shape := ⟨2, ![1, 64]⟩
abbrev S800000x64 : Shape := ⟨2, ![800000, 64]⟩

abbrev nBuf : Space → Nat
  | .hbm => 64
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x64, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x64, .f32⟩
  | .hbm, ⟨47, _⟩ => ⟨S_, .f32⟩
  | .hbm, ⟨48, _⟩ => ⟨S50000x64, .f32⟩
  | .hbm, ⟨49, _⟩ => ⟨S800000x1, .i32⟩
  | .hbm, ⟨50, _⟩ => ⟨S50000x64, .f32⟩
  | .hbm, ⟨51, _⟩ => ⟨S_, .f32⟩
  | .hbm, ⟨52, _⟩ => ⟨S800000, .f32⟩
  | .hbm, ⟨53, _⟩ => ⟨S_, .f32⟩
  | .hbm, ⟨54, _⟩ => ⟨S50000, .f32⟩
  | .hbm, ⟨55, _⟩ => ⟨S800000x1, .i32⟩
  | .hbm, ⟨56, _⟩ => ⟨S50000, .f32⟩
  | .hbm, ⟨57, _⟩ => ⟨S_, .f32⟩
  | .hbm, ⟨58, _⟩ => ⟨S50000, .f32⟩
  | .hbm, ⟨59, _⟩ => ⟨S50000, .f32⟩
  | .hbm, ⟨60, _⟩ => ⟨S50000x1, .f32⟩
  | .hbm, ⟨61, _⟩ => ⟨S50000x64, .f32⟩
  | .hbm, ⟨62, _⟩ => ⟨S50000x64, .f32⟩
  | .hbm, ⟨63, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x64, .f32⟩
  | .local _ .vmem, ⟨5, _⟩ => ⟨S128x64, .f32⟩
  | .local _ .vmem, ⟨6, _⟩ => ⟨S64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S64x64, .f32⟩
  | .local _ .vmem, ⟨15, _⟩ => ⟨S64, .f32⟩
  | .local _ .vmem, ⟨16, _⟩ => ⟨S5000x64, .f32⟩
  | .local _ .vmem, ⟨17, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x64 : Shape := ⟨2, ![50000, 64]⟩
abbrev S1x64 : Shape := ⟨2, ![1, 64]⟩
abbrev S800000x64 : Shape := ⟨2, ![800000, 64]⟩

abbrev nBuf : Space → Nat
  | .hbm => 80
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x64, .f32⟩
  | .hbm, ⟨38, _⟩ => ⟨S50000x64, .f32⟩
  | .hbm, ⟨39, _⟩ => ⟨S50000x64, .f32⟩
  | .hbm, ⟨40, _⟩ => ⟨S1x64, .f32⟩
  | .hbm, ⟨41, _⟩ => ⟨S50000x64, .f32⟩
  | .hbm, ⟨42, _⟩ => ⟨S50000x64, .f32⟩
  | .hbm, ⟨43, _⟩ => ⟨S_, .f32⟩
  | .hbm, ⟨44, _⟩ => ⟨S50000x64, .f32⟩
  | .hbm, ⟨45, _⟩ => ⟨S50000x64, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x64, .f32⟩
  | .hbm, ⟨55, _⟩ => ⟨S_, .f32⟩
  | .hbm, ⟨56, _⟩ => ⟨S50000x64, .f32⟩
  | .hbm, ⟨57, _⟩ => ⟨S800000x1, .i32⟩
  | .hbm, ⟨58, _⟩ => ⟨S50000x64, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x64, .f32⟩
  | .hbm, ⟨70, _⟩ => ⟨S50000x64, .f32⟩
  | .hbm, ⟨71, _⟩ => ⟨S50000x64, .f32⟩
  | .hbm, ⟨72, _⟩ => ⟨S50000x64, .f32⟩
  | .hbm, ⟨73, _⟩ => ⟨S50000x64, .f32⟩
  | .hbm, ⟨74, _⟩ => ⟨S1x64, .f32⟩
  | .hbm, ⟨75, _⟩ => ⟨S50000x64, .f32⟩
  | .hbm, ⟨76, _⟩ => ⟨S50000x64, .f32⟩
  | .hbm, ⟨77, _⟩ => ⟨S_, .f32⟩
  | .hbm, ⟨78, _⟩ => ⟨S50000x64, .f32⟩
  | .hbm, ⟨79, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_v55 : Ref sig .tc := ⟨.hbm, 79, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KernelRun.lean ====
/-
  The kernel's run, with the result array named.

  The program is four stretches in order: host operations, the first launch, host operations, the second launch. The
  buffer contents at the boundaries between them form a chain from the launch memory: after a host stretch, the
  stretch's operations applied to what was there; after a launch, its arrays at what its write-backs leave and every
  other buffer as it was. Every weakly fair execution terminates without a fault, and in the final memory every buffer
  that outlives the launches holds the last boundary's contents. Read at the arguments this says they end unchanged;
  read at the result buffer it names the network's output as the end of that chain, which the value proof then reads
  back stretch by stretch.
-/
import proofs.«107024_j62955630624874_1_alg».proof.Proof.Gen.KernelIdeal.Frame

noncomputable section

namespace Cert.Sage.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the last boundary's contents and the arguments
    unchanged: the final memory agrees with the last boundary's contents on every buffer that outlives the launches,
    the result buffer and the arguments among them. -/
theorem run_result : θ_run defs (onTc (τ := τ) (main (F := F))) ⟨m, fun _ => 0, ρ⟩ (fun r => ∀ c : Dev nD,
      r.2.mem ((c.tc : Thread nD τ).loc main_v43) = W4 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v43 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.Sage.Run

end
-- ==== Proof.LibMatmulPlain.lean ====
/-
  The product of an [M, K] matrix by a [K, N] matrix, read at an entry, on the extended reals, for any extents and
  element formats: entry (p, n) of the product taken into a zero accumulator is the sum over k of the left matrix's
  (p, k) entry times the right matrix's (k, n) entry; taken into an accumulator acc it is acc's entry plus that sum.
-/
import Idealize.ShloMosaic.PureOps.Ideal.Laws
import Idealize.ShloMosaic.Lib.ValueIdx

noncomputable section

namespace Cert.LibMatmulPlain

open Idealize.ShloMosaic Idealize.ShloMosaic.ValueIdx

/-- The dimension numbers of a plain matrix product: contract the left matrix's columns with the right one's rows. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row coordinate is the output entry's row. -/
theorem lhsIdx_row (j : (⟨2, ![M, N]⟩ : Shape).Idx) (q : (plainDims M K N wf).contr.Idx) :
    ((plainDims M K N wf).lhsIdx j q 0).val = (j 0).val := by
  unfold DotDims.lhsIdx
  rw [dif_neg (show ¬(0 : Fin 2) ∈ (plainDims M K N wf).lhsBatch from List.not_mem_nil),
    dif_pos (show (0 : Fin 2) ∈ (plainDims M K N wf).lhsNonContracting from List.mem_singleton.mpr rfl)]
  rfl

/-- The right operand's column coordinate is the output entry's column. -/
theorem rhsIdx_col (j : (⟨2, ![M, N]⟩ : Shape).Idx) (q : (plainDims M K N wf).contr.Idx) :
    ((plainDims M K N wf).rhsIdx j q 1).val = (j 1).val := by
  unfold DotDims.rhsIdx
  rw [dif_neg (show ¬(1 : Fin 2) ∈ (plainDims M K N wf).rhsBatch from List.not_mem_nil),
    dif_pos (show (1 : Fin 2) ∈ (plainDims M K N wf).rhsNonContracting from List.mem_singleton.mpr rfl)]
  rfl

/-- The left operand's index for output entry (p, n) and contraction index k is (p, k). -/
theorem lhsIdx_eq (p : Fin M) (n : Fin N) (k : Fin K) :
    (plainDims M K N wf).lhsIdx (ix2 p n) ((contrEquiv1 (plainDims M K N wf) K rfl rfl).symm k) = ix2 p k := by
  have hk := contrEquiv1_symm_val (plainDims M K N wf) K rfl rfl k
  funext a
  refine Fin.ext ?_
  match a with
  | ⟨0, _⟩ => exact lhsIdx_row wf _ _
  | ⟨1, _⟩ => exact ((plainDims M K N wf).lhsIdx_val_of_single rfl _ _).trans hk

/-- The right operand's index for output entry (p, n) and contraction index k is (k, n). -/
theorem rhsIdx_eq (p : Fin M) (n : Fin N) (k : Fin K) :
    (plainDims M K N wf).rhsIdx (ix2 p n) ((contrEquiv1 (plainDims M K N wf) K rfl rfl).symm k) = ix2 k n := by
  have hk := contrEquiv1_symm_val (plainDims M K N wf) K rfl rfl k
  funext a
  refine Fin.ext ?_
  match a with
  | ⟨0, _⟩ => exact ((plainDims M K N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul (plainDims M K N wf) prec lhs rhs acc (ix2 p n)
      = acc (ix2 p n) + ∑ k : Fin K, lhs (ix2 p k) * rhs (ix2 k n) := by
  rw [Ideal.matmul_apply, ← Equiv.sum_comp (contrEquiv1 (plainDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![K, N]⟩ φ₂) (p : Fin M) (n : Fin N) :
    FloatOps.matmul (plainDims M K N wf) prec lhs rhs (constant ⟨2, ![M, N]⟩ .f32 0x00000000#32) (ix2 p n)
      = ∑ k : Fin K, lhs (ix2 p k) * rhs (ix2 k n) := by
  rw [matmul_apply wf prec lhs rhs _ p n]
  show Ideal.ofBits .f32 0x00000000#32 + _ = _
  rw [Ideal.ofBits_zero_f32, zero_add]

end Cert.LibMatmulPlain

end
-- ==== Proof.LibAffineRows.lean ====
/-
  An affine map of the rows of a matrix, as a vector program spells it, read at an entry on the extended reals,
  for any extents: the operands cast to a narrower float format (the identity on the extended reals), their
  product taken into a zero accumulator, and a bias vector [n] laid out as one row [1, n] and repeated down the
  [m, n] result. Entry (p, q) is the k-term sum of products plus the bias's entry q.
-/
import Idealize.ShloMosaic.Lib.ValueLayout
import Idealize.ShloMosaic.Lib.Pipeline.Value
import proofs.«107024_j62955630624874_1_alg».proof.Proof.LibMatmulPlain

noncomputable section

namespace Cert.LibAffineRows

open Idealize.ShloMosaic Idealize.ShloMosaic.ValueIdx Cert.LibMatmulPlain

variable {m k n : Nat}

/-- A bias vector laid out as a row and repeated down `m` rows reads, at (p, q), its entry q. -/
theorem biasRows_apply (b : FVec Ideal ⟨1, ![n]⟩ .f32) (hc : (⟨1, ![n]⟩ : Shape).ShapeCasts ⟨2, ![1, n]⟩)
    (hb : (⟨2, ![1, n]⟩ : Shape).Broadcasts ⟨2, ![m, n]⟩) (p : Fin m) (q : Fin n) :
    broadcastTo ⟨2, ![m, n]⟩ (shapeCast ⟨2, ![1, n]⟩ b hc) hb (ix2 p q) = b (ix1 q) :=
  (broadcastTo_1b_ab_apply (shapeCast ⟨2, ![1, n]⟩ b hc) hb p q).trans (shapeCast_a_1a_apply b hc 0 q)

/-- Entry (p, q) of `u · w + bias`, the operands cast to a narrower format first: the k-term sum of products plus
    the bias's entry q. -/
theorem affine_apply {ψ : FTy} (wf : DotDims.WF ⟨2, ![m, k]⟩ ⟨2, ![k, n]⟩ ⟨2, ![m, n]⟩ [1] [0] [0] [1] [] [])
    (u : FVec Ideal ⟨2, ![m, k]⟩ .f32) (w : FVec Ideal ⟨2, ![k, n]⟩ .f32) (b : FVec Ideal ⟨1, ![n]⟩ .f32)
    (hψ : ψ.bits < FTy.f32.bits) (hc : (⟨1, ![n]⟩ : Shape).ShapeCasts ⟨2, ![1, n]⟩)
    (hb : (⟨2, ![1, n]⟩ : Shape).Broadcasts ⟨2, ![m, n]⟩) (p : Fin m) (q : Fin n) :
    addf (matmul (plainDims m k n wf) none (truncf ψ u hψ) (truncf ψ w hψ) (constant ⟨2, ![m, n]⟩ .f32 0x00000000#32))
        (broadcastTo ⟨2, ![m, n]⟩ (shapeCast ⟨2, ![1, n]⟩ b hc) hb) (ix2 p q)
      = (∑ j : Fin k, u (ix2 p j) * w (ix2 j q)) + b (ix1 q) := by
  show FloatOps.matmul (plainDims m k n wf) none (truncf ψ u hψ) (truncf ψ w hψ) (constant ⟨2, ![m, n]⟩ .f32 0x00000000#32) (ix2 p q)
      + broadcastTo ⟨2, ![m, n]⟩ (shapeCast ⟨2, ![1, n]⟩ b hc) hb (ix2 p q) = _
  rw [matmul_zero_apply wf none (truncf ψ u hψ) (truncf ψ w hψ) p q, biasRows_apply b hc hb p q]
  rfl

/-- The same followed by a rectifier — the maximum with the all-zero f32 word repeated over the result: entry (p, q) is
    the maximum of the affine entry and that word's value. -/
theorem rectAffine_apply {ψ : FTy} (wf : DotDims.WF ⟨2, ![m, k]⟩ ⟨2, ![k, n]⟩ ⟨2, ![m, n]⟩ [1] [0] [0] [1] [] [])
    (u : FVec Ideal ⟨2, ![m, k]⟩ .f32) (w : FVec Ideal ⟨2, ![k, n]⟩ .f32) (b : FVec Ideal ⟨1, ![n]⟩ .f32)
    (hψ : ψ.bits < FTy.f32.bits) (hc : (⟨1, ![n]⟩ : Shape).ShapeCasts ⟨2, ![1, n]⟩)
    (hb : (⟨2, ![1, n]⟩ : Shape).Broadcasts ⟨2, ![m, n]⟩) (p : Fin m) (q : Fin n) :
    maximumf (addf (matmul (plainDims m k n wf) none (truncf ψ u hψ) (truncf ψ w hψ) (constant ⟨2, ![m, n]⟩ .f32 0x00000000#32))
          (broadcastTo ⟨2, ![m, n]⟩ (shapeCast ⟨2, ![1, n]⟩ b hc) hb))
        (broadcast ⟨2, ![m, n]⟩ (Scalar.ofBits (F := Ideal) .f32 0x00000000#32)) (ix2 p q)
      = max ((∑ j : Fin k, u (ix2 p j) * w (ix2 j q)) + b (ix1 q)) (Ideal.ofBits .f32 0x00000000#32) :=
  congrArg (max · (Ideal.ofBits .f32 0x00000000#32)) (affine_apply wf u w b hψ hc hb p q)

end Cert.LibAffineRows

end
-- ==== Proof.LibDenseLayers.lean ====
/-
  The vocabulary of a stack of dense layers on the extended reals, for any extents, and the spellings that denote it.

  For a matrix a [m, k], a weight w [k, n] and a bias b [n]:  mm a w  has entry (p, q) the k-term sum of a(p, j) * w(j, q);
  bias m b  repeats b down m rows;  rect a  is, entry by entry, the maximum with the value of the all-zero f32 word.
  A product taken on the matrix unit into a zero accumulator (its weight first cast to a narrower float format, the
  identity on the extended reals) and a general product on the host are both mm; a bias vector laid out as one row and
  repeated down the rows, either way it is spelt, is bias; the maximum with a zero repeated over the shape is rect.

  The one law of arithmetic used: a sum over k1 + k2 + k3 terms is the sum of its first k1, next k2 and last k3 terms
  (addition on the extended reals is commutative and associative; nothing here needs a finite entry). So the product of
  three matrices joined side by side with a weight is the sum of the three products with the weight's matching row slabs.
-/
import Idealize.ShloMosaic.Lib.ValueLayout
import Idealize.ShloMosaic.Lib.Pipeline.Value
import Idealize.ShloMosaic.PureOps.Ideal.Laws
import proofs.«107024_j62955630624874_1_alg».proof.Proof.LibMatmulPlain
import proofs.«107024_j62955630624874_1_alg».proof.Proof.LibAffineRows

noncomputable section

namespace Cert.Layers

open Idealize.ShloMosaic Idealize.ShloMosaic.ValueIdx Cert.LibMatmulPlain Cert.LibAffineRows

variable {m k n : Nat}

/-- An [m, n] matrix of extended reals. -/
abbrev Mat (m n : Nat) : Type := (⟨2, ![m, n]⟩ : Shape).Idx → EReal
/-- An [n] vector of extended reals. -/
abbrev Row (n : Nat) : Type := (⟨1, ![n]⟩ : Shape).Idx → EReal

/-- Rows of a against columns of w. -/
def mm (a : Mat m k) (w : Mat k n) : Mat m n := fun i => ∑ j : Fin k, a (ix2 (i 0) j) * w (ix2 j (i 1))

/-- The vector b repeated down m rows. -/
def bias (m : Nat) (b : Row n) : Mat m n := fun i => b (ix1 (i 1))

/-- Entry by entry the maximum with the value of the all-zero f32 word. -/
def rect {s : Shape} (a : s.Idx → EReal) : s.Idx → EReal := fun i => max (a i) (Ideal.ofBits .f32 0x00000000#32)

/-- One dense layer: a · w + b. -/
def dense (a : Mat m k) (w : Mat k n) (b : Row n) : Mat m n := fun i => mm a w i + bias m b i

theorem mm_apply (a : Mat m k) (w : Mat k n) (p : Fin m) (q : Fin n) :
    mm a w (ix2 p q) = ∑ j : Fin k, a (ix2 p j) * w (ix2 j q) := rfl

/-! ## The matrix unit's spellings -/

/-- A product on the matrix unit into a zero accumulator, the weight cast to a narrower format first. -/
theorem tileMm_eq {φ₁ ψ : FTy} (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = plainDims m k n wf)
    (a : FVec Ideal ⟨2, ![m, k]⟩ φ₁) (w : FVec Ideal ⟨2, ![k, n]⟩ .f32) (hψ : ψ.bits < FTy.f32.bits) :
    matmul d none a (truncf ψ w hψ) (constant ⟨2, ![m, n]⟩ .f32 0x00000000#32) = mm a w := by
  subst hd
  funext i
  obtain ⟨p, q, rfl⟩ : ∃ (p : Fin m) (q : Fin n), i = ix2 p q := ⟨i 0, i 1, eq_ix2 i⟩
  exact matmul_zero_apply wf none a (truncf ψ w hψ) p q

/-- A bias vector laid out as one row and repeated down the rows. -/
theorem tileBias_eq (b : FVec Ideal ⟨1, ![n]⟩ .f32) (hc : (⟨1, ![n]⟩ : Shape).ShapeCasts ⟨2, ![1, n]⟩)
    (hb : (⟨2, ![1, n]⟩ : Shape).Broadcasts ⟨2, ![m, n]⟩) :
    broadcastTo ⟨2, ![m, n]⟩ (shapeCast ⟨2, ![1, n]⟩ b hc) hb = bias m b := by
  funext i
  obtain ⟨p, q, rfl⟩ : ∃ (p : Fin m) (q : Fin n), i = ix2 p q := ⟨i 0, i 1, eq_ix2 i⟩
  exact biasRows_apply b hc hb p q

/-- The maximum with the zero word repeated over the shape. -/
theorem tileRect_eq {s : Shape} (a : FVec Ideal s .f32) :
    maximumf a (broadcast s (Scalar.ofBits (F := Ideal) .f32 0x00000000#32)) = rect a := rfl

/-! ## The host's spellings -/

/-- A general product contracting the left matrix's columns with the right one's rows. -/
theorem hostMm_eq (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = plainDims m k n wf)
    (a : FVec Ideal ⟨2, ![m, k]⟩ .f32) (w : FVec Ideal ⟨2, ![k, n]⟩ .f32) :
    Host.dotGeneral d none a w = mm a w := by
  subst hd
  funext i
  obtain ⟨p, q, rfl⟩ : ∃ (p : Fin m) (q : Fin n), i = ix2 p q := ⟨i 0, i 1, eq_ix2 i⟩
  rw [mm_apply]
  simp only [Host.dotGeneral]
  rw [Ideal.dotGeneral_apply, ← Equiv.sum_comp (contrEquiv1 (plainDims m k n wf) k rfl rfl).symm]
  refine Finset.sum_congr rfl fun j _ => ?_
  rw [lhsIdx_eq wf p q j, rhsIdx_eq wf p q j]

/-- A bias vector broadcast first to one row and then down the rows. -/
theorem hostBias_eq (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![m, n]⟩ ![0, 1]) :
    broadcastInDim ⟨2, ![m, n]⟩ ![0, 1] h2 (broadcastInDim ⟨2, ![1, n]⟩ ![1] h1 b) = bias m b := by
  funext i
  obtain ⟨p, q, rfl⟩ : ∃ (p : Fin m) (q : Fin n), i = ix2 p q := ⟨i 0, i 1, eq_ix2 i⟩
  refine (broadcastInDim_apply _ h2 _ (ix2 p q) (ix2 (0 : Fin 1) q) fun ax => ?_).trans
    (broadcastInDim_apply _ h1 b (ix2 (0 : Fin 1) q) (ix1 q) fun ax => ?_)
  · match ax with
    | ⟨0, _⟩ => show (0 : Nat) = if (1 : Nat) = 1 then 0 else p.val; rw [if_pos rfl]
    | ⟨1, _⟩ => show q.val = if n = 1 then 0 else q.val; split_ifs with h <;> omega
  · match ax with
    | ⟨0, _⟩ => show q.val = if n = 1 then 0 else q.val; split_ifs with h <;> omega

/-- The maximum with the zero word as a scalar constant broadcast over the shape. -/
theorem hostRect_eq {s : Shape} (a : FVec Ideal s .f32) (h : (⟨0, ![]⟩ : Shape).BroadcastsInDim s ![]) :
    maximumf a (broadcastInDim s ![] h (constant (F := Ideal) ⟨0, ![]⟩ .f32 0x00000000#32)) = rect a := by
  funext i
  show max (a i) (broadcastInDim s ![] h (constant (F := Ideal) ⟨0, ![]⟩ .f32 0x00000000#32) i) = _
  rw [broadcastInDim_apply _ h _ i ix0 fun ax => ax.elim0]
  rfl

/-! ## Splitting a sum -/

/-- A sum over k1 + k2 + k3 terms is the sum of its first k1, next k2 and last k3 terms. -/
theorem sum_three {M : Type} [AddCommMonoid M] (k1 k2 k3 : Nat) (f : Fin (k1 + k2 + k3) → M) :
    ∑ j, f j = (∑ j : Fin k1, f ⟨j.val, by omega⟩ + ∑ j : Fin k2, f ⟨k1 + j.val, by omega⟩)
      + ∑ j : Fin k3, f ⟨k1 + k2 + j.val, by omega⟩ := by
  rw [Fin.sum_univ_add, Fin.sum_univ_add]
  rfl

/-- A sum over k1 + k2 terms is the sum of its first k1 and last k2 terms. -/
theorem sum_two {M : Type} [AddCommMonoid M] (k1 k2 : Nat) (f : Fin (k1 + k2) → M) :
    ∑ j, f j = ∑ j : Fin k1, f ⟨j.val, by omega⟩ + ∑ j : Fin k2, f ⟨k1 + j.val, by omega⟩ := by
  rw [Fin.sum_univ_add]
  rfl

end Cert.Layers

end
-- ==== Proof.LibSageLayer.lean ====
/-
  One graph-convolution layer with mean aggregation, on the extended reals, for any extents.

  For a matrix a [n, k] of aggregated neighbour features, the nodes' own features x [n, k], two weights wl, wr [k, h]
  and a bias b [h], the layer's result has entry (p, q)

      max ( Σ_j a(p, j) · wl(j, q)  +  Σ_j x(p, j) · wr(j, q)  +  b(q) ,  0 ).

  Row p of the result depends on row p of a and of x only, so a block of consecutive rows of the result is the layer
  of the same rows of a and x (layer_rows). The matrix unit's spelling (both operands of each product cast to a
  narrower float format first, the identity on the extended reals; the products taken into zero accumulators; the
  bias laid out as one row and repeated down the rows; the maximum with a repeated zero) and the host's spelling
  (two general products, the bias broadcast in two steps, the maximum with a broadcast zero constant) both denote
  it. No law of arithmetic is used beyond the definitions: the two spellings add their three terms in the same
  order.
-/
import proofs.«107024_j62955630624874_1_alg».proof.Proof.LibDenseLayers

noncomputable section

namespace Cert.Sage

open Idealize.ShloMosaic Idealize.ShloMosaic.ValueIdx Cert.LibMatmulPlain Cert.Layers

variable {n k h : Nat}

/-- a · wl + x · wr + b, rectified. -/
def layer (a x : Mat n k) (wl wr : Mat k h) (b : Row h) : Mat n h :=
  rect fun i => (mm a wl i + mm x wr i) + bias n b i

/-- The layer read at entry (p, q). -/
theorem layer_apply (a x : Mat n k) (wl wr : Mat k h) (b : Row h) (p : Fin n) (q : Fin h) :
    layer a x wl wr b (ix2 p q)
      = max ((∑ j : Fin k, a (ix2 p j) * wl (ix2 j q) + ∑ j : Fin k, x (ix2 p j) * wr (ix2 j q)) + b (ix1 q))
          (Ideal.ofBits .f32 0x00000000#32) := rfl

/-- Row p' of the layer of two matrices whose rows p' are rows p of a and of x is row p of the layer of a and x. -/
theorem layer_rows {n' : Nat} (a x : Mat n k) (a' x' : Mat n' k) (wl wr : Mat k h) (b : Row h)
    (p' : Fin n') (p : Fin n) (ha : ∀ j, a' (ix2 p' j) = a (ix2 p j)) (hx : ∀ j, x' (ix2 p' j) = x (ix2 p j))
    (q : Fin h) :
    layer a' x' wl wr b (ix2 p' q) = layer a x wl wr b (ix2 p q) := by
  rw [layer_apply, layer_apply]
  simp only [ha, hx]

/-- The matrix unit's spelling of the layer. -/
theorem tileLayer_eq {ψ : FTy} (d : DotDims ⟨2, ![n, k]⟩ ⟨2, ![k, h]⟩ ⟨2, ![n, h]⟩)
    (wf : DotDims.WF ⟨2, ![n, k]⟩ ⟨2, ![k, h]⟩ ⟨2, ![n, h]⟩ [1] [0] [0] [1] [] []) (hd : d = plainDims n k h wf)
    (a x : FVec Ideal ⟨2, ![n, k]⟩ .f32) (wl wr : FVec Ideal ⟨2, ![k, h]⟩ .f32) (b : FVec Ideal ⟨1, ![h]⟩ .f32)
    (hψ : ψ.bits < FTy.f32.bits) (hc : (⟨1, ![h]⟩ : Shape).ShapeCasts ⟨2, ![1, h]⟩)
    (hb : (⟨2, ![1, h]⟩ : Shape).Broadcasts ⟨2, ![n, h]⟩) :
    maximumf
        (addf
          (addf (matmul d none (truncf ψ a hψ) (truncf ψ wl hψ) (constant ⟨2, ![n, h]⟩ .f32 0x00000000#32))
            (matmul d none (truncf ψ x hψ) (truncf ψ wr hψ) (constant ⟨2, ![n, h]⟩ .f32 0x00000000#32)))
          (broadcastTo ⟨2, ![n, h]⟩ (shapeCast ⟨2, ![1, h]⟩ b hc) hb))
        (broadcast ⟨2, ![n, h]⟩ (Scalar.ofBits (F := Ideal) .f32 0x00000000#32))
      = layer a x wl wr b := by
  rw [tileRect_eq, tileBias_eq b hc hb, tileMm_eq d wf hd (truncf ψ a hψ) wl hψ, tileMm_eq d wf hd (truncf ψ x hψ) wr hψ]
  rfl

/-- The host's spelling of the layer. -/
theorem hostLayer_eq (d : DotDims ⟨2, ![n, k]⟩ ⟨2, ![k, h]⟩ ⟨2, ![n, h]⟩)
    (wf : DotDims.WF ⟨2, ![n, k]⟩ ⟨2, ![k, h]⟩ ⟨2, ![n, h]⟩ [1] [0] [0] [1] [] []) (hd : d = plainDims n k h wf)
    (a x : FVec Ideal ⟨2, ![n, k]⟩ .f32) (wl wr : FVec Ideal ⟨2, ![k, h]⟩ .f32) (b : FVec Ideal ⟨1, ![h]⟩ .f32)
    (h1 : (⟨1, ![h]⟩ : Shape).BroadcastsInDim ⟨2, ![1, h]⟩ ![1])
    (h2 : (⟨2, ![1, h]⟩ : Shape).BroadcastsInDim ⟨2, ![n, h]⟩ ![0, 1])
    (h0 : (⟨0, ![]⟩ : Shape).BroadcastsInDim ⟨2, ![n, h]⟩ ![]) :
    maximumf
        (addf (addf (Host.dotGeneral d none a wl) (Host.dotGeneral d none x wr))
          (broadcastInDim ⟨2, ![n, h]⟩ ![0, 1] h2 (broadcastInDim ⟨2, ![1, h]⟩ ![1] h1 b)))
        (broadcastInDim ⟨2, ![n, h]⟩ ![] h0 (constant (F := Ideal) ⟨0, ![]⟩ .f32 0x00000000#32))
      = layer a x wl wr b := by
  rw [hostRect_eq _ h0, hostBias_eq b h1 h2, hostMm_eq d wf hd a wl, hostMm_eq d wf hd x wr]
  rfl

end Cert.Sage

end
-- ==== Proof.TileLayerOne.lean ====
/-
  The first layer on the matrix unit, block by block.

  The first launch walks ten blocks of 5000 consecutive rows of its two row operands (the aggregated features and the
  nodes' own features, both [50000, 128]); the two weights [128, 64] and the bias [64] are one block each, the same at
  every point. At point t the body leaves in the output's staging buffer the layer of rows 5000 t … 5000 t + 4999 of the
  row operands, which is rows 5000 t … 5000 t + 4999 of the layer of the whole operands, since a row of a layer depends on
  the same row of its operands only. The ten blocks tile the [50000, 64] result (row r lies in block r / 5000), so after
  the launch the result array holds the layer of the whole arrays, whatever they held when the launch was entered.
-/
import proofs.«107024_j62955630624874_1_alg».proof.Proof.Gen.KernelIdeal.Frame
import proofs.«107024_j62955630624874_1_alg».proof.Proof.LibSageLayer
import Idealize.ShloMosaic.Lib.Pipeline.Value
import Idealize.ShloMosaic.Lib.ValueIdx

noncomputable section

namespace Cert.Sage.TileOne

open Idealize.ShloMosaic Idealize.ShloMosaic.TcCoe Idealize.ShloMosaic.ValueIdx Idealize.SL.Sem
open Idealize.ShloMosaic.Pipeline (Dat)
open Cert.KernelIdeal Cert.KernelIdeal.Gen Cert.Layers Cert.Sage

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's arithmetic is the layer of its five loaded blocks. -/
theorem pay_eq (x0 x1 : Vec Ideal S5000x128 .f32) (x2 x3 : Vec Ideal S128x64 .f32) (x4 : Vec Ideal S64 .f32) :
    k0_pay1 x0 x1 x2 x3 x4 = layer (n := 5000) (k := 128) (h := 64) x0 x1 x2 x3 x4 := by
  unfold k0_pay1
  dsimp only
  rw [shapeCast_self]
  exact tileLayer_eq dot_S5000x128_S128x64_S5000x64_1_0_0_1_n_n dot_S5000x128_S128x64_S5000x64_1_0_0_1_n_n_wf rfl
    x0 x1 x2 x3 x4 bitsLt_bf16_f32 shapeCasts_S64_S1x64 broadcasts_S1x64_S5000x64

/-- Where each window's block sits at point t: the row windows at block row t, the weights and the bias at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- A row window's block at point t, read at (p, j), is row 5000 t + p of its array. -/
theorem rows_v22 (c : Dev nD) (t : Fin cfg0.N) (p : Fin 5000) (j : Fin 128) (hp : 5000 * t.val + p.val < 50000) :
    (iblk0 V c 0 t : S5000x128.Idx → EReal) (ix2 p j) = (V c main_v22 : S50000x128.Idx → EReal) (ix2 ⟨5000 * t.val + p.val, hp⟩ j) := by
  obtain ⟨e0, e1, -⟩ := idx_facts t
  unfold iblk0
  rw [View.read_apply]
  show (V c main_v22 : S50000x128.Idx → EReal) _ = V c main_v22 _
  refine congrArg (V c main_v22 : S50000x128.Idx → EReal) ?_
  funext a
  apply Fin.ext
  match a with
  | ⟨0, _⟩ => show win0_0.index t (0 : Fin 2) * 5000 + 1 * p.val = 5000 * t.val + p.val; rw [e0]; omega
  | ⟨1, _⟩ => show win0_0.index t (1 : Fin 2) * 128 + 1 * j.val = j.val; rw [e1]; omega

theorem rows_arg0 (c : Dev nD) (t : Fin cfg0.N) (p : Fin 5000) (j : Fin 128) (hp : 5000 * t.val + p.val < 50000) :
    (iblk0 V c 1 t : S5000x128.Idx → EReal) (ix2 p j) = (V c main_arg0 : S50000x128.Idx → EReal) (ix2 ⟨5000 * t.val + p.val, hp⟩ j) := by
  obtain ⟨-, -, e0, e1, -⟩ := idx_facts t
  unfold iblk0
  rw [View.read_apply]
  show (V c main_arg0 : S50000x128.Idx → EReal) _ = V c main_arg0 _
  refine congrArg (V c main_arg0 : S50000x128.Idx → EReal) ?_
  funext a
  apply Fin.ext
  match a with
  | ⟨0, _⟩ => show win0_1.index t (0 : Fin 2) * 5000 + 1 * p.val = 5000 * t.val + p.val; rw [e0]; omega
  | ⟨1, _⟩ => show win0_1.index t (1 : Fin 2) * 128 + 1 * j.val = j.val; rw [e1]; omega

/-- The weights' and the bias's one block is the whole array, at every point. -/
theorem blk_arg2 (c : Dev nD) (t : Fin cfg0.N) : (iblk0 V c 2 t : S128x64.Idx → EReal) = V c main_arg2 := by
  obtain ⟨-, -, -, -, e0, e1, -⟩ := idx_facts t
  funext y
  unfold iblk0
  rw [View.read_apply]
  show (V c main_arg2 : S128x64.Idx → EReal) _ = V c main_arg2 _
  refine congrArg (V c main_arg2 : S128x64.Idx → EReal) ?_
  funext a
  apply Fin.ext
  match a with
  | ⟨0, _⟩ => show win0_2.index t (0 : Fin 2) * 128 + 1 * (y 0).val = (y 0).val; rw [e0]; omega
  | ⟨1, _⟩ => show win0_2.index t (1 : Fin 2) * 64 + 1 * (y 1).val = (y 1).val; rw [e1]; omega

theorem blk_arg3 (c : Dev nD) (t : Fin cfg0.N) : (iblk0 V c 3 t : S128x64.Idx → EReal) = V c main_arg3 := by
  obtain ⟨-, -, -, -, -, -, e0, e1, -⟩ := idx_facts t
  funext y
  unfold iblk0
  rw [View.read_apply]
  show (V c main_arg3 : S128x64.Idx → EReal) _ = V c main_arg3 _
  refine congrArg (V c main_arg3 : S128x64.Idx → EReal) ?_
  funext a
  apply Fin.ext
  match a with
  | ⟨0, _⟩ => show win0_3.index t (0 : Fin 2) * 128 + 1 * (y 0).val = (y 0).val; rw [e0]; omega
  | ⟨1, _⟩ => show win0_3.index t (1 : Fin 2) * 64 + 1 * (y 1).val = (y 1).val; rw [e1]; omega

theorem blk_arg4 (c : Dev nD) (t : Fin cfg0.N) : (iblk0 V c 4 t : S64.Idx → EReal) = V c main_arg4 := by
  obtain ⟨-, -, -, -, -, -, -, -, e0, -⟩ := idx_facts t
  funext y
  unfold iblk0
  rw [View.read_apply]
  show (V c main_arg4 : S64.Idx → EReal) _ = V c main_arg4 _
  refine congrArg (V c main_arg4 : S64.Idx → EReal) ?_
  funext a
  apply Fin.ext
  match a with
  | ⟨0, _⟩ => show win0_4.index t (0 : Fin 1) * 64 + 1 * (y 0).val = (y 0).val; rw [e0]; omega

/-- Where the output block's element (p, q) sits in the result array at point t. -/
theorem emb_out (t : Fin cfg0.N) (p : Fin 5000) (q : Fin 64) (hp : 5000 * t.val + p.val < 50000) :
    ((cfg0.win 5).blk t).view.emb (ix2 p q) = (ix2 ⟨5000 * t.val + p.val, hp⟩ q : S50000x64.Idx) := by
  obtain ⟨-, -, -, -, -, -, -, -, -, e0, e1⟩ := idx_facts t
  funext a
  apply Fin.ext
  match a with
  | ⟨0, _⟩ => show win0_5.index t (0 : Fin 2) * 5000 + 1 * p.val = 5000 * t.val + p.val; rw [e0]; omega
  | ⟨1, _⟩ => show win0_5.index t (1 : Fin 2) * 64 + 1 * q.val = q.val; rw [e1]; omega

/-- What point t writes back is block t of the layer of the whole arrays as the launch finds them. -/
theorem flushed_eq (c : Dev nD) (t : Fin cfg0.N) :
    (dat0 V c).flushed 5 t = ((cfg0.win 5).blk t).view.read (Elt Ideal)
      (layer (n := 50000) (k := 128) (h := 64) (V c main_v22) (V c main_arg0) (V c main_arg2) (V c main_arg3) (V c main_arg4)) := by
  show (cfg0.win 5).cut (grid0.coords t) ((dat0 V c).after 5 t) = _
  rw [after0_5]
  unfold out0_5
  rw [View.canon_unit_zero hz2]
  simp only [View.ld_unit_zero (S := S5000x128) hz2, View.ld_unit_zero (S := S128x64) hz2, View.ld_unit_zero (S := S64) hz1]
  rw [pay_eq]
  funext y
  obtain ⟨p, q, rfl⟩ : ∃ (p : Fin 5000) (q : Fin 64), y = ix2 p q := ⟨y 0, y 1, eq_ix2 y⟩
  have ht : t.val < 10 := lt_of_lt_of_eq t.isLt (N_0 : cfg0.N = 10)
  have hp : 5000 * t.val + p.val < 50000 := by have := p.isLt; omega
  show layer (n := 5000) (k := 128) (h := 64) (iblk0 V c 0 t) (iblk0 V c 1 t) (iblk0 V c 2 t) (iblk0 V c 3 t) (iblk0 V c 4 t) (ix2 p q)
    = layer (n := 50000) (k := 128) (h := 64) (V c main_v22) (V c main_arg0) (V c main_arg2) (V c main_arg3) (V c main_arg4)
        (((cfg0.win 5).blk t).view.emb (ix2 p q))
  rw [emb_out t p q hp, blk_arg2 V c t, blk_arg3 V c t, blk_arg4 V c t]
  exact layer_rows (V c main_v22) (V c main_arg0) (iblk0 V c 0 t) (iblk0 V c 1 t) (V c main_arg2) (V c main_arg3) (V c main_arg4)
    p ⟨5000 * t.val + p.val, hp⟩ (fun j => rows_v22 V c t p j hp) (fun j => rows_arg0 V c t p j hp) q

/-- An index of the result array is in point t's block iff each coordinate is in the block's range on its axis. -/
theorem mem_blk (t : Fin cfg0.N) (i : S50000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v23).slice (win0_5.rect t)).set ↔ _
  rw [View.set_slice_whole, Rect.mem_set_unit]
  exact Iff.rfl

/-- Row r of the result lies in the block of point r / 5000. -/
theorem cover (i : S50000x64.Idx) : ∃ t : Fin cfg0.N, (cfg0.win 5).flush t = true ∧ i ∈ ((cfg0.win 5).blk t).view.set := by
  have hi0 : (i 0).val < 50000 := (i 0).isLt
  have hi1 : (i 1).val < 64 := (i 1).isLt
  have hN : cfg0.N = 10 := N_0
  have hlt : (i 0).val / 5000 < cfg0.N := by rw [hN]; omega
  refine ⟨⟨(i 0).val / 5000, hlt⟩, flush0_5 _, ?_⟩
  rw [mem_blk]
  obtain ⟨-, -, -, -, -, -, -, -, -, e0, e1⟩ := idx_facts ⟨(i 0).val / 5000, hlt⟩
  intro a
  match a with
  | ⟨0, _⟩ =>
    show win0_5.index ⟨(i 0).val / 5000, hlt⟩ (0 : Fin 2) * 5000 ≤ (i 0).val ∧ (i 0).val < win0_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, hlt⟩ (1 : Fin 2) * 64 ≤ (i 1).val ∧ (i 1).val < win0_5.index ⟨(i 0).val / 5000, hlt⟩ (1 : Fin 2) * 64 + 64
    rw [e1]; omega

/-- After the launch the result array holds the layer of the arrays as the launch found them. -/
theorem array_eq (c : Dev nD) :
    (dat0 V c).arrAt 5 cfg0.N
      = layer (n := 50000) (k := 128) (h := 64) (V c main_v22) (V c main_arg0) (V c main_arg2) (V c main_arg3) (V c main_arg4) :=
  (dat0 V c).arrAt_eq_of_cover 5 _ (fun t _ => flushed_eq V c t) cover

end Cert.Sage.TileOne

end
-- ==== Proof.TileLayerTwo.lean ====
/-
  The second layer on the matrix unit, block by block.

  The second launch walks ten blocks of 5000 consecutive rows of its two row operands (the first layer's result
  aggregated along the edges, and that result itself, both [50000, 64]); the two weights [64, 64] and the bias [64] are
  one block each, the same at every point. At point t the body leaves in the output's staging buffer the layer of rows
  5000 t … 5000 t + 4999 of the row operands, which is the same rows of the layer of the whole operands. The ten blocks
  tile the [50000, 64] result (row r lies in block r / 5000), so after the launch the result array holds the layer of the
  whole arrays, whatever they held when the launch was entered.
-/
import proofs.«107024_j62955630624874_1_alg».proof.Proof.Gen.KernelIdeal.Frame
import proofs.«107024_j62955630624874_1_alg».proof.Proof.LibSageLayer
import Idealize.ShloMosaic.Lib.Pipeline.Value
import Idealize.ShloMosaic.Lib.ValueIdx

noncomputable section

namespace Cert.Sage.TileTwo

open Idealize.ShloMosaic Idealize.ShloMosaic.TcCoe Idealize.ShloMosaic.ValueIdx Idealize.SL.Sem
open Idealize.ShloMosaic.Pipeline (Dat)
open Cert.KernelIdeal Cert.KernelIdeal.Gen Cert.Layers Cert.Sage

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's arithmetic is the layer of its five loaded blocks. -/
theorem pay_eq (x0 x1 : Vec Ideal S5000x64 .f32) (x2 x3 : Vec Ideal S64x64 .f32) (x4 : Vec Ideal S64 .f32) :
    k1_pay1 x0 x1 x2 x3 x4 = layer (n := 5000) (k := 64) (h := 64) x0 x1 x2 x3 x4 := by
  unfold k1_pay1
  dsimp only
  rw [shapeCast_self, shapeCast_self]
  exact tileLayer_eq dot_S5000x64_S64x64_S5000x64_1_0_0_1_n_n dot_S5000x64_S64x64_S5000x64_1_0_0_1_n_n_wf rfl
    x0 x1 x2 x3 x4 bitsLt_bf16_f32 shapeCasts_S64_S1x64 broadcasts_S1x64_S5000x64

/-- Where each window's block sits at point t: the row windows at block row t, the weights and the bias at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- A row window's block at point t, read at (p, j), is row 5000 t + p of its array. -/
theorem rows_v42 (c : Dev nD) (t : Fin cfg1.N) (p : Fin 5000) (j : Fin 64) (hp : 5000 * t.val + p.val < 50000) :
    (iblk1 V c 0 t : S5000x64.Idx → EReal) (ix2 p j) = (V c main_v42 : S50000x64.Idx → EReal) (ix2 ⟨5000 * t.val + p.val, hp⟩ j) := by
  obtain ⟨e0, e1, -⟩ := idx_facts t
  unfold iblk1
  rw [View.read_apply]
  show (V c main_v42 : S50000x64.Idx → EReal) _ = V c main_v42 _
  refine congrArg (V c main_v42 : S50000x64.Idx → EReal) ?_
  funext a
  apply Fin.ext
  match a with
  | ⟨0, _⟩ => show win1_0.index t (0 : Fin 2) * 5000 + 1 * p.val = 5000 * t.val + p.val; rw [e0]; omega
  | ⟨1, _⟩ => show win1_0.index t (1 : Fin 2) * 64 + 1 * j.val = j.val; rw [e1]; omega

theorem rows_v23 (c : Dev nD) (t : Fin cfg1.N) (p : Fin 5000) (j : Fin 64) (hp : 5000 * t.val + p.val < 50000) :
    (iblk1 V c 1 t : S5000x64.Idx → EReal) (ix2 p j) = (V c main_v23 : S50000x64.Idx → EReal) (ix2 ⟨5000 * t.val + p.val, hp⟩ j) := by
  obtain ⟨-, -, e0, e1, -⟩ := idx_facts t
  unfold iblk1
  rw [View.read_apply]
  show (V c main_v23 : S50000x64.Idx → EReal) _ = V c main_v23 _
  refine congrArg (V c main_v23 : S50000x64.Idx → EReal) ?_
  funext a
  apply Fin.ext
  match a with
  | ⟨0, _⟩ => show win1_1.index t (0 : Fin 2) * 5000 + 1 * p.val = 5000 * t.val + p.val; rw [e0]; omega
  | ⟨1, _⟩ => show win1_1.index t (1 : Fin 2) * 64 + 1 * j.val = j.val; rw [e1]; omega

/-- The weights' and the bias's one block is the whole array, at every point. -/
theorem blk_arg5 (c : Dev nD) (t : Fin cfg1.N) : (iblk1 V c 2 t : S64x64.Idx → EReal) = V c main_arg5 := by
  obtain ⟨-, -, -, -, e0, e1, -⟩ := idx_facts t
  funext y
  unfold iblk1
  rw [View.read_apply]
  show (V c main_arg5 : S64x64.Idx → EReal) _ = V c main_arg5 _
  refine congrArg (V c main_arg5 : S64x64.Idx → EReal) ?_
  funext a
  apply Fin.ext
  match a with
  | ⟨0, _⟩ => show win1_2.index t (0 : Fin 2) * 64 + 1 * (y 0).val = (y 0).val; rw [e0]; omega
  | ⟨1, _⟩ => show win1_2.index t (1 : Fin 2) * 64 + 1 * (y 1).val = (y 1).val; rw [e1]; omega

theorem blk_arg6 (c : Dev nD) (t : Fin cfg1.N) : (iblk1 V c 3 t : S64x64.Idx → EReal) = V c main_arg6 := by
  obtain ⟨-, -, -, -, -, -, e0, e1, -⟩ := idx_facts t
  funext y
  unfold iblk1
  rw [View.read_apply]
  show (V c main_arg6 : S64x64.Idx → EReal) _ = V c main_arg6 _
  refine congrArg (V c main_arg6 : S64x64.Idx → EReal) ?_
  funext a
  apply Fin.ext
  match a with
  | ⟨0, _⟩ => show win1_3.index t (0 : Fin 2) * 64 + 1 * (y 0).val = (y 0).val; rw [e0]; omega
  | ⟨1, _⟩ => show win1_3.index t (1 : Fin 2) * 64 + 1 * (y 1).val = (y 1).val; rw [e1]; omega

theorem blk_arg7 (c : Dev nD) (t : Fin cfg1.N) : (iblk1 V c 4 t : S64.Idx → EReal) = V c main_arg7 := by
  obtain ⟨-, -, -, -, -, -, -, -, e0, -⟩ := idx_facts t
  funext y
  unfold iblk1
  rw [View.read_apply]
  show (V c main_arg7 : S64.Idx → EReal) _ = V c main_arg7 _
  refine congrArg (V c main_arg7 : S64.Idx → EReal) ?_
  funext a
  apply Fin.ext
  match a with
  | ⟨0, _⟩ => show win1_4.index t (0 : Fin 1) * 64 + 1 * (y 0).val = (y 0).val; rw [e0]; omega

/-- Where the output block's element (p, q) sits in the result array at point t. -/
theorem emb_out (t : Fin cfg1.N) (p : Fin 5000) (q : Fin 64) (hp : 5000 * t.val + p.val < 50000) :
    ((cfg1.win 5).blk t).view.emb (ix2 p q) = (ix2 ⟨5000 * t.val + p.val, hp⟩ q : S50000x64.Idx) := by
  obtain ⟨-, -, -, -, -, -, -, -, -, e0, e1⟩ := idx_facts t
  funext a
  apply Fin.ext
  match a with
  | ⟨0, _⟩ => show win1_5.index t (0 : Fin 2) * 5000 + 1 * p.val = 5000 * t.val + p.val; rw [e0]; omega
  | ⟨1, _⟩ => show win1_5.index t (1 : Fin 2) * 64 + 1 * q.val = q.val; rw [e1]; omega

/-- What point t writes back is block t of the layer of the whole arrays as the launch finds them. -/
theorem flushed_eq (c : Dev nD) (t : Fin cfg1.N) :
    (dat1 V c).flushed 5 t = ((cfg1.win 5).blk t).view.read (Elt Ideal)
      (layer (n := 50000) (k := 64) (h := 64) (V c main_v42) (V c main_v23) (V c main_arg5) (V c main_arg6) (V c main_arg7)) := by
  show (cfg1.win 5).cut (grid1.coords t) ((dat1 V c).after 5 t) = _
  rw [after1_5]
  unfold out1_5
  rw [View.canon_unit_zero hz2]
  simp only [View.ld_unit_zero (S := S5000x64) hz2, View.ld_unit_zero (S := S64x64) hz2, View.ld_unit_zero (S := S64) hz1]
  rw [pay_eq]
  funext y
  obtain ⟨p, q, rfl⟩ : ∃ (p : Fin 5000) (q : Fin 64), y = ix2 p q := ⟨y 0, y 1, eq_ix2 y⟩
  have ht : t.val < 10 := lt_of_lt_of_eq t.isLt (N_1 : cfg1.N = 10)
  have hp : 5000 * t.val + p.val < 50000 := by have := p.isLt; omega
  show layer (n := 5000) (k := 64) (h := 64) (iblk1 V c 0 t) (iblk1 V c 1 t) (iblk1 V c 2 t) (iblk1 V c 3 t) (iblk1 V c 4 t) (ix2 p q)
    = layer (n := 50000) (k := 64) (h := 64) (V c main_v42) (V c main_v23) (V c main_arg5) (V c main_arg6) (V c main_arg7)
        (((cfg1.win 5).blk t).view.emb (ix2 p q))
  rw [emb_out t p q hp, blk_arg5 V c t, blk_arg6 V c t, blk_arg7 V c t]
  exact layer_rows (V c main_v42) (V c main_v23) (iblk1 V c 0 t) (iblk1 V c 1 t) (V c main_arg5) (V c main_arg6) (V c main_arg7)
    p ⟨5000 * t.val + p.val, hp⟩ (fun j => rows_v42 V c t p j hp) (fun j => rows_v23 V c t p j hp) q

/-- An index of the result array is in point t's block iff each coordinate is in the block's range on its axis. -/
theorem mem_blk (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v43).slice (win1_5.rect t)).set ↔ _
  rw [View.set_slice_whole, Rect.mem_set_unit]
  exact Iff.rfl

/-- Row r of the result lies in the block of point r / 5000. -/
theorem cover (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 10 := N_1
  have hlt : (i 0).val / 5000 < cfg1.N := by rw [hN]; omega
  refine ⟨⟨(i 0).val / 5000, hlt⟩, flush1_5 _, ?_⟩
  rw [mem_blk]
  obtain ⟨-, -, -, -, -, -, -, -, -, e0, e1⟩ := idx_facts ⟨(i 0).val / 5000, hlt⟩
  intro a
  match a with
  | ⟨0, _⟩ =>
    show win1_5.index ⟨(i 0).val / 5000, hlt⟩ (0 : Fin 2) * 5000 ≤ (i 0).val ∧ (i 0).val < win1_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, hlt⟩ (1 : Fin 2) * 64 ≤ (i 1).val ∧ (i 1).val < win1_5.index ⟨(i 0).val / 5000, hlt⟩ (1 : Fin 2) * 64 + 64
    rw [e1]; omega

/-- After the launch the result array holds the layer of the arrays as the launch found them. -/
theorem array_eq (c : Dev nD) :
    (dat1 V c).arrAt 5 cfg1.N
      = layer (n := 50000) (k := 64) (h := 64) (V c main_v42) (V c main_v23) (V c main_arg5) (V c main_arg6) (V c main_arg7) :=
  (dat1 V c).arrAt_eq_of_cover 5 _ (fun t _ => flushed_eq V c t) cover

end Cert.Sage.TileTwo

end
-- ==== Proof.SageNet.lean ====
/-
  The two-layer network with mean aggregation, as one function of its arguments.

  An edge list [2, 800000] gives a source and a destination node per edge. The mean aggregation of a feature matrix
  gathers, for every edge, the source node's row (a negative source index wrapped by the node count), adds the rows
  into their destination nodes, and divides each node's row by its number of incoming edges, at least one. Both
  programs spell it with the same host operations; it is carried here as one function of the features, the sources
  and the destinations, and never opened. The network is a layer over the aggregated and own features, then a second
  layer over the first one's result, aggregated along the same edges, and that result itself.
-/
import proofs.«107024_j62955630624874_1_alg».proof.KernelIdeal
import proofs.«107024_j62955630624874_1_alg».proof.Proof.Gen.KernelIdeal
import proofs.«107024_j62955630624874_1_alg».proof.Proof.LibSageLayer

noncomputable section

namespace Cert.Sage

open Idealize.ShloMosaic Cert.KernelIdeal Cert.KernelIdeal.Facts₀ Cert.KernelIdeal.Facts

/-- A vector of 800000 node indices, as 32-bit words. -/
abbrev Nodes : Type := (⟨S800000, .i32⟩ : BufTy).Contents (Elt Ideal)
/-- The edge list. -/
abbrev Edges : Type := (⟨S2x800000, .i32⟩ : BufTy).Contents (Elt Ideal)

/-- Row 0 of the edge list: every edge's source node. -/
def srcOf (ei : Edges) : Nodes :=
  shapeCast S800000 (extractStridedSlice S1x800000 ![0, 0] ei slices_S2x800000_S1x800000_0_0) shapeCasts_S1x800000_S800000

/-- Row 1 of the edge list: every edge's destination node. -/
def dstOf (ei : Edges) : Nodes :=
  shapeCast S800000 (extractStridedSlice S1x800000 ![1, 0] ei slices_S2x800000_S1x800000_1_0) shapeCasts_S1x800000_S800000

/-- A negative index counts from the end: add the node count to it. -/
def wrap (s : Nodes) : Nodes :=
  select (cmpi .slt s (broadcastInDim S800000 ![] bcast_S_S800000 (constantI S_ 32 0#32)))
    (addi s (broadcastInDim S800000 ![] bcast_S_S800000 (constantI S_ 32 50000#32))) s

/-- Every node's number of incoming edges, at least one. -/
def degree (dst : Nodes) : FVec Ideal S50000 .f32 :=
  maximumf
    (Host.scatterAdd scatter_S50000_S800000x1_S800000_n_0_0_1
      (broadcastInDim S50000 ![] bcast_S_S50000 (constant (F := Ideal) S_ .f32 0x00000000#32))
      (broadcastInDim S800000x1 ![0] bcast_S800000_S800000x1_0 dst)
      (broadcastInDim S800000 ![] bcast_S_S800000 (constant (F := Ideal) S_ .f32 0x3F800000#32)))
    (broadcastInDim S50000 ![] bcast_S_S50000 (constant (F := Ideal) S_ .f32 0x3F800000#32))

/-- The mean over incoming edges of the source rows of a [50000, 128] feature matrix. -/
def mean128 (x : FVec Ideal S50000x128 .f32) (src dst : Nodes) : FVec Ideal S50000x128 .f32 :=
  Host.divf
    (Host.scatterAdd scatter_S50000x128_S800000x1_S800000x128_1_0_0_1
      (broadcastInDim S50000x128 ![] bcast_S_S50000x128 (constant (F := Ideal) S_ .f32 0x00000000#32))
      (broadcastInDim S800000x1 ![0] bcast_S800000_S800000x1_0 dst)
      (Host.gather gather_S50000x128_S800000x1_S800000x128_1_0_n_n_0_1_1128 x
        (broadcastInDim S800000x1 ![0] bcast_S800000_S800000x1_0 (wrap src))))
    (broadcastInDim S50000x128 ![0, 1] bcast_S50000x1_S50000x128_0_1
      (broadcastInDim S50000x1 ![0] bcast_S50000_S50000x1_0 (degree dst)))

/-- The same of a [50000, 64] feature matrix. -/
def mean64 (x : FVec Ideal S50000x64 .f32) (src dst : Nodes) : FVec Ideal S50000x64 .f32 :=
  Host.divf
    (Host.scatterAdd scatter_S50000x64_S800000x1_S800000x64_1_0_0_1
      (broadcastInDim S50000x64 ![] bcast_S_S50000x64 (constant (F := Ideal) S_ .f32 0x00000000#32))
      (broadcastInDim S800000x1 ![0] bcast_S800000_S800000x1_0 dst)
      (Host.gather gather_S50000x64_S800000x1_S800000x64_1_0_n_n_0_1_164 x
        (broadcastInDim S800000x1 ![0] bcast_S800000_S800000x1_0 (wrap src))))
    (broadcastInDim S50000x64 ![0, 1] bcast_S50000x1_S50000x64_0_1
      (broadcastInDim S50000x1 ![0] bcast_S50000_S50000x1_0 (degree dst)))

/-- The first layer's result. -/
def hidden (x : FVec Ideal S50000x128 .f32) (src dst : Nodes) (w1l w1r : FVec Ideal S128x64 .f32) (b1 : FVec Ideal S64 .f32) :
    FVec Ideal S50000x64 .f32 :=
  layer (n := 50000) (k := 128) (h := 64) (mean128 x src dst) x w1l w1r b1

/-- The network's result. -/
def net (x : FVec Ideal S50000x128 .f32) (ei : Edges) (w1l w1r : FVec Ideal S128x64 .f32) (b1 : FVec Ideal S64 .f32)
    (w2l w2r : FVec Ideal S64x64 .f32) (b2 : FVec Ideal S64 .f32) : FVec Ideal S50000x64 .f32 :=
  layer (n := 50000) (k := 64) (h := 64) (mean64 (hidden x (srcOf ei) (dstOf ei) w1l w1r b1) (srcOf ei) (dstOf ei))
    (hidden x (srcOf ei) (dstOf ei) w1l w1r b1) w2l w2r b2

end Cert.Sage

end
-- ==== Proof.KernelFold.lean ====
/-
  The kernel's result buffer, read back through the program's four stretches.

  The last boundary's contents at the result buffer are what the second launch's write-backs leave: the second layer of
  the arrays that launch is entered with. Those are what the second host stretch computes from the contents the first
  launch leaves — the mean aggregation of the first launch's result along the edges, that result itself, and the second
  layer's weights and bias untouched. The first launch's result is the first layer of what the first host stretch
  computes from the launch memory: the mean aggregation of the features, and the features, weights and bias untouched.
  The sources and destinations both aggregations use are rows of the edge list, computed once by the first stretch and
  written by nothing after it. Each host stretch is read over an arbitrary valuation of the buffers, so that the
  boundary contents it is later applied to stay closed; composed, the result buffer holds the network of the arguments.
-/
import proofs.«107024_j62955630624874_1_alg».proof.Proof.Gen.KernelIdeal.Frame
import proofs.«107024_j62955630624874_1_alg».proof.Proof.TileLayerOne
import proofs.«107024_j62955630624874_1_alg».proof.Proof.TileLayerTwo
import proofs.«107024_j62955630624874_1_alg».proof.Proof.SageNet
import Idealize.ShloMosaic.Lib.StableHlo.Run

noncomputable section

namespace Cert.Sage.Fold

open Idealize.ShloMosaic Idealize.ShloMosaic.TcCoe Idealize.ShloMosaic.StableHlo Idealize.SL.Sem
open Cert.KernelIdeal Cert.KernelIdeal.Gen Cert.Sage

/-! ## The two host stretches, over any valuation of the buffers -/

section Stretches

variable (W : Valuation τ sig (Elt Ideal))

set_option maxHeartbeats 4000000 in
/-- The first stretch leaves the mean aggregation of the features in the first launch's first operand. -/
theorem first_v22 : StableHlo.after (hostOps0 (F := Ideal)) W (Proc.devRef .tc main_v22)
    = mean128 (W (Proc.devRef .tc main_arg0)) (srcOf (W (Proc.devRef .tc main_arg1))) (dstOf (W (Proc.devRef .tc main_arg1))) := by
  dsimp only [hostOps0]
  after_results_simp
  rfl

/-- It leaves the edges' sources in their buffer … -/
theorem first_v1 : StableHlo.after (hostOps0 (F := Ideal)) W (Proc.devRef .tc main_v1) = srcOf (W (Proc.devRef .tc main_arg1)) := by
  dsimp only [hostOps0]
  after_results
  rfl

/-- … and the edges' destinations in theirs. -/
theorem first_v3 : StableHlo.after (hostOps0 (F := Ideal)) W (Proc.devRef .tc main_v3) = dstOf (W (Proc.devRef .tc main_arg1)) := by
  dsimp only [hostOps0]
  after_results
  rfl

/-- It writes no argument. -/
theorem first_arg0 : StableHlo.after (hostOps0 (F := Ideal)) W (Proc.devRef .tc main_arg0) = (W (Proc.devRef .tc main_arg0)) := by
  dsimp only [hostOps0]
  after_results

/-- It writes no argument. -/
theorem first_arg2 : StableHlo.after (hostOps0 (F := Ideal)) W (Proc.devRef .tc main_arg2) = (W (Proc.devRef .tc main_arg2)) := by
  dsimp only [hostOps0]
  after_results

/-- It writes no argument. -/
theorem first_arg3 : StableHlo.after (hostOps0 (F := Ideal)) W (Proc.devRef .tc main_arg3) = (W (Proc.devRef .tc main_arg3)) := by
  dsimp only [hostOps0]
  after_results

/-- It writes no argument. -/
theorem first_arg4 : StableHlo.after (hostOps0 (F := Ideal)) W (Proc.devRef .tc main_arg4) = (W (Proc.devRef .tc main_arg4)) := by
  dsimp only [hostOps0]
  after_results

/-- It writes no argument. -/
theorem first_arg5 : StableHlo.after (hostOps0 (F := Ideal)) W (Proc.devRef .tc main_arg5) = (W (Proc.devRef .tc main_arg5)) := by
  dsimp only [hostOps0]
  after_results

/-- It writes no argument. -/
theorem first_arg6 : StableHlo.after (hostOps0 (F := Ideal)) W (Proc.devRef .tc main_arg6) = (W (Proc.devRef .tc main_arg6)) := by
  dsimp only [hostOps0]
  after_results

/-- It writes no argument. -/
theorem first_arg7 : StableHlo.after (hostOps0 (F := Ideal)) W (Proc.devRef .tc main_arg7) = (W (Proc.devRef .tc main_arg7)) := by
  dsimp only [hostOps0]
  after_results

set_option maxHeartbeats 4000000 in
/-- The second stretch leaves the mean aggregation of the first launch's result in the second launch's first operand,
    along the sources and destinations the first stretch computed. -/
theorem second_v42 : StableHlo.after (hostOps1 (F := Ideal)) W (Proc.devRef .tc main_v42)
    = mean64 (W (Proc.devRef .tc main_v23)) (W (Proc.devRef .tc main_v1)) (W (Proc.devRef .tc main_v3)) := by
  dsimp only [hostOps1]
  after_results_simp
  rfl

/-- It leaves the first launch's result as it was … -/
theorem second_v23 : StableHlo.after (hostOps1 (F := Ideal)) W (Proc.devRef .tc main_v23) = (W (Proc.devRef .tc main_v23)) := by
  dsimp only [hostOps1]
  after_results

/-- … and writes no argument. -/
theorem second_arg5 : StableHlo.after (hostOps1 (F := Ideal)) W (Proc.devRef .tc main_arg5) = (W (Proc.devRef .tc main_arg5)) := by
  dsimp only [hostOps1]
  after_results

/-- … and writes no argument. -/
theorem second_arg6 : StableHlo.after (hostOps1 (F := Ideal)) W (Proc.devRef .tc main_arg6) = (W (Proc.devRef .tc main_arg6)) := by
  dsimp only [hostOps1]
  after_results

/-- … and writes no argument. -/
theorem second_arg7 : StableHlo.after (hostOps1 (F := Ideal)) W (Proc.devRef .tc main_arg7) = (W (Proc.devRef .tc main_arg7)) := by
  dsimp only [hostOps1]
  after_results

end Stretches

/-! ## The chain of boundary contents, read at the result buffer -/

variable (m : (ℓ : Loc nD τ sig) → Buf (Elt Ideal) ℓ) (ρ : Dev nD → PrngReg)

/-- After the first launch its result array holds the first layer of the arguments. -/
theorem hidden_eq (c : Dev nD) :
    W2 m ρ c (Proc.devRef .tc main_v23) = (hidden (m ((c.tc : Thread nD τ).loc main_arg0)) (srcOf (m ((c.tc : Thread nD τ).loc main_arg1))) (dstOf (m ((c.tc : Thread nD τ).loc main_arg1))) (m ((c.tc : Thread nD τ).loc main_arg2)) (m ((c.tc : Thread nD τ).loc main_arg3)) (m ((c.tc : Thread nD τ).loc main_arg4))) := by
  have e22 : V1 m ρ c main_v22 = mean128 (m ((c.tc : Thread nD τ).loc main_arg0)) (srcOf (m ((c.tc : Thread nD τ).loc main_arg1))) (dstOf (m ((c.tc : Thread nD τ).loc main_arg1))) := first_v22 (W0 m ρ c)
  have e0 : V1 m ρ c main_arg0 = (m ((c.tc : Thread nD τ).loc main_arg0)) := first_arg0 (W0 m ρ c)
  have e2 : V1 m ρ c main_arg2 = (m ((c.tc : Thread nD τ).loc main_arg2)) := first_arg2 (W0 m ρ c)
  have e3 : V1 m ρ c main_arg3 = (m ((c.tc : Thread nD τ).loc main_arg3)) := first_arg3 (W0 m ρ c)
  have e4 : V1 m ρ c main_arg4 = (m ((c.tc : Thread nD τ).loc main_arg4)) := first_arg4 (W0 m ρ c)
  refine (W2_arr m ρ c 5).trans ?_
  rw [TileOne.array_eq (V1 m ρ) c, e22, e0, e2, e3, e4]
  rfl

/-- The last boundary's contents at the result buffer are the network of the arguments. -/
theorem result_eq (c : Dev nD) :
    W4 m ρ c (Proc.devRef .tc main_v43)
      = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have eH : V3 m ρ c main_v23 = (hidden (m ((c.tc : Thread nD τ).loc main_arg0)) (srcOf (m ((c.tc : Thread nD τ).loc main_arg1))) (dstOf (m ((c.tc : Thread nD τ).loc main_arg1))) (m ((c.tc : Thread nD τ).loc main_arg2)) (m ((c.tc : Thread nD τ).loc main_arg3)) (m ((c.tc : Thread nD τ).loc main_arg4))) := (second_v23 (W2 m ρ c)).trans (hidden_eq m ρ c)
  have e1 : W2 m ρ c (Proc.devRef .tc main_v1) = srcOf (m ((c.tc : Thread nD τ).loc main_arg1)) :=
    (W2_of_ne m ρ c main_v1 (by decide)).trans (first_v1 (W0 m ρ c))
  have e3 : W2 m ρ c (Proc.devRef .tc main_v3) = dstOf (m ((c.tc : Thread nD τ).loc main_arg1)) :=
    (W2_of_ne m ρ c main_v3 (by decide)).trans (first_v3 (W0 m ρ c))
  have e42 : V3 m ρ c main_v42 = mean64 (hidden (m ((c.tc : Thread nD τ).loc main_arg0)) (srcOf (m ((c.tc : Thread nD τ).loc main_arg1))) (dstOf (m ((c.tc : Thread nD τ).loc main_arg1))) (m ((c.tc : Thread nD τ).loc main_arg2)) (m ((c.tc : Thread nD τ).loc main_arg3)) (m ((c.tc : Thread nD τ).loc main_arg4))) (srcOf (m ((c.tc : Thread nD τ).loc main_arg1))) (dstOf (m ((c.tc : Thread nD τ).loc main_arg1))) := by
    refine (second_v42 (W2 m ρ c)).trans ?_
    rw [hidden_eq m ρ c, e1, e3]
  have e5 : V3 m ρ c main_arg5 = (m ((c.tc : Thread nD τ).loc main_arg5)) :=
    (second_arg5 (W2 m ρ c)).trans ((W2_of_ne m ρ c main_arg5 (by decide)).trans (first_arg5 (W0 m ρ c)))
  have e6 : V3 m ρ c main_arg6 = (m ((c.tc : Thread nD τ).loc main_arg6)) :=
    (second_arg6 (W2 m ρ c)).trans ((W2_of_ne m ρ c main_arg6 (by decide)).trans (first_arg6 (W0 m ρ c)))
  have e7 : V3 m ρ c main_arg7 = (m ((c.tc : Thread nD τ).loc main_arg7)) :=
    (second_arg7 (W2 m ρ c)).trans ((W2_of_ne m ρ c main_arg7 (by decide)).trans (first_arg7 (W0 m ρ c)))
  refine (W4_arr m ρ c 5).trans ?_
  rw [TileTwo.array_eq (V3 m ρ) c, e42, eH, e5, e6, e7]
  rfl

end Cert.Sage.Fold

end
-- ==== Proof.RefNet.lean ====
/-
  The reference computes the network.

  The reference's run ends with its result at one composed term of its arguments. Each of its two dense stages is the
  host's spelling of a layer (two general products, the bias broadcast in two steps, the maximum with a broadcast zero),
  and what feeds each stage is the mean aggregation spelt with the same host operations the network's definition names;
  so the term is the network of the arguments.
-/
import proofs.«107024_j62955630624874_1_alg».proof.Proof.Gen.ReferenceIdeal.Run
import proofs.«107024_j62955630624874_1_alg».proof.Proof.SageNet

noncomputable section

namespace Cert.Sage.Ref

open Idealize.ShloMosaic Idealize.ShloMosaic.TcCoe Idealize.SL.Sem
open Cert.ReferenceIdeal Cert.ReferenceIdeal.Facts₀ Cert.ReferenceIdeal.Facts Cert.Sage

/-- The reference's result term is the network of its arguments' launch contents. -/
theorem result_eq (m : (ℓ : Loc nD τ sig) → Buf (Elt Ideal) ℓ) (c : Dev nD) :
    Cert.ReferenceIdeal.Value.res_main_v55 (F := Ideal) m c
      = net (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  unfold Cert.ReferenceIdeal.Value.res_main_v55
  rw [hostLayer_eq dot_S50000x64_S64x64_S50000x64_1_0_0_1_n_n dot_S50000x64_S64x64_S50000x64_1_0_0_1_n_n_wf rfl]
  rw [hostLayer_eq dot_S50000x128_S128x64_S50000x64_1_0_0_1_n_n dot_S50000x128_S128x64_S50000x64_1_0_0_1_n_n_wf rfl]
  rfl

end Cert.Sage.Ref

end
-- ==== Proof.lean ====
/-
  A two-layer graph-convolution network with mean aggregation, its dense part on the matrix unit, against the same
  network in plain array operations: equal results on the extended reals.

  Both programs aggregate neighbour features with the same host operations: gather the source node's row for every
  edge, add the rows into their destination nodes, divide by the number of incoming edges (at least one). The kernel
  then computes each layer  max(a · wl + x · wr + b, 0)  in ten launches' blocks of 5000 rows, its operands cast to a
  narrower float format on the way into the matrix unit; the reference computes it with two general products over all
  50000 rows. On the extended reals a change of float format is the identity and both products are the same sums, and a
  row of a layer depends on the same row of its operands only, so the ten row blocks the kernel writes are the rows of
  the reference's whole-array layer. The second layer reads the first one's result through the same aggregation in both
  programs. No law of arithmetic joins the two sides (both add their three terms in the same order), so the finiteness
  of the inputs is not used.

  The three frames: each program terminates without a fault and leaves its arguments unchanged. The idealized kernel is
  the kernel's own text read on the extended reals (no rewrite was applied), so there is nothing to preserve.
-/
import proofs.«107024_j62955630624874_1_alg».proof.Defs
import proofs.«107024_j62955630624874_1_alg».proof.Proof.Gen.Kernel
import proofs.«107024_j62955630624874_1_alg».proof.Proof.Gen.Kernel.Frame
import proofs.«107024_j62955630624874_1_alg».proof.Proof.Gen.KernelIdeal
import proofs.«107024_j62955630624874_1_alg».proof.Proof.Gen.KernelIdeal.Frame
import proofs.«107024_j62955630624874_1_alg».proof.Proof.Gen.ReferenceIdeal
import proofs.«107024_j62955630624874_1_alg».proof.Proof.Gen.ReferenceIdeal.Run
import proofs.«107024_j62955630624874_1_alg».proof.Proof.Gen.Pre_finite_inputs
import proofs.«107024_j62955630624874_1_alg».proof.Proof.KernelRun
import proofs.«107024_j62955630624874_1_alg».proof.Proof.KernelFold
import proofs.«107024_j62955630624874_1_alg».proof.Proof.RefNet
import Idealize.ShloMosaic.Adequacy
import Idealize.ShloMosaic.Init

noncomputable section

namespace Cert.Proof

open Idealize.ShloMosaic Idealize.SL.Sem

/-- The word-level kernel terminates and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- Both programs end with the network of the arguments in their result buffers. -/
theorem algebraic : Cert.algebraic_KernelIdeal_ReferenceIdeal := by
  intro m ρ m' ρ' _ hagree
  refine ⟨fun c => Cert.Sage.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.Sage.Fold.result_eq m ρ c), (h c).2⟩)
      (Cert.Sage.Run.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7⟩ := hagree c
    rw [Cert.Sage.Ref.result_eq m' c, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
